-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x800000 32) (main_arg2 : FVec F S256x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 122
  | .vmem => 21
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S850000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S50000x128, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x128, .f32⟩
  | .hbm, ⟨64, _⟩ => ⟨S850000x1, .f32⟩
  | .hbm, ⟨65, _⟩ => ⟨S850000x128, .f32⟩
  | .hbm, ⟨66, _⟩ => ⟨S850000x128, .f32⟩
  | .hbm, ⟨67, _⟩ => ⟨S_, .f32⟩
  | .hbm, ⟨68, _⟩ => ⟨S50000x128, .f32⟩
  | .hbm, ⟨69, _⟩ => ⟨S850000x1, .i32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000x128, .f32⟩
  | .hbm, ⟨87, _⟩ => ⟨S850000x1, .f32⟩
  | .hbm, ⟨88, _⟩ => ⟨S850000x128, .f32⟩
  | .hbm, ⟨89, _⟩ => ⟨S850000x128, .f32⟩
  | .hbm, ⟨90, _⟩ => ⟨S_, .f32⟩
  | .hbm, ⟨91, _⟩ => ⟨S50000x128, .f32⟩
  | .hbm, ⟨92, _⟩ => ⟨S850000x1, .i32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S_, .i32⟩
  | .hbm, ⟨102, _⟩ => ⟨S850000, .i32⟩
  | .hbm, ⟨103, _⟩ => ⟨S850000, .i1⟩
  | .hbm, ⟨104, _⟩ => ⟨S_, .i32⟩
  | .hbm, ⟨105, _⟩ => ⟨S850000, .i32⟩
  | .hbm, ⟨106, _⟩ => ⟨S850000, .i32⟩
  | .hbm, ⟨107, _⟩ => ⟨S850000, .i32⟩
  | .hbm, ⟨108, _⟩ => ⟨S850000x1, .i32⟩
  | .hbm, ⟨109, _⟩ => ⟨S850000x128, .f32⟩
  | .hbm, ⟨110, _⟩ => ⟨S850000x1, .f32⟩
  | .hbm, ⟨111, _⟩ => ⟨S850000x128, .f32⟩
  | .hbm, ⟨112, _⟩ => ⟨S850000x128, .f32⟩
  | .hbm, ⟨113, _⟩ => ⟨S_, .f32⟩
  | .hbm, ⟨114, _⟩ => ⟨S50000x128, .f32⟩
  | .hbm, ⟨115, _⟩ => ⟨S850000x1, .i32⟩
  | .hbm, ⟨116, _⟩ => ⟨S50000x128, .f32⟩
  | .hbm, ⟨117, _⟩ => ⟨S1x128, .f32⟩
  | .hbm, ⟨118, _⟩ => ⟨S50000x128, .f32⟩
  | .hbm, ⟨119, _⟩ => ⟨S50000x128, .f32⟩
  | .hbm, ⟨120, _⟩ => ⟨S1x128, .f32⟩
  | .hbm, ⟨121, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call1_cst : Ref sig .tc := ⟨.hbm, 74, rfl⟩
abbrev main_call1_v0 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_call2_cst : Ref sig .tc := ⟨.hbm, 97, rfl⟩
abbrev main_call2_v0 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_c_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_15 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S800000 : S_.BroadcastsInDim S800000 (![] : Fin 0 → Fin S800000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v68) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v85) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v87) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 132
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S1x800000, .i32⟩
  | 11 => ⟨S800000, .i32⟩
  | 12 => ⟨S1x800000, .i32⟩
  | 13 => ⟨S800000, .i32⟩
  | 14 => ⟨S50000, .i32⟩
  | 15 => ⟨S850000, .i32⟩
  | 16 => ⟨S850000, .i32⟩
  | 17 => ⟨S_, .f32⟩
  | 18 => ⟨S800000, .f32⟩
  | 19 => ⟨S_, .f32⟩
  | 20 => ⟨S50000, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S50000x128, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x128, .f32⟩
  | 64 => ⟨S850000x1, .f32⟩
  | 65 => ⟨S850000x128, .f32⟩
  | 66 => ⟨S850000x128, .f32⟩
  | 67 => ⟨S_, .f32⟩
  | 68 => ⟨S50000x128, .f32⟩
  | 69 => ⟨S850000x1, .i32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000x128, .f32⟩
  | 87 => ⟨S850000x1, .f32⟩
  | 88 => ⟨S850000x128, .f32⟩
  | 89 => ⟨S850000x128, .f32⟩
  | 90 => ⟨S_, .f32⟩
  | 91 => ⟨S50000x128, .f32⟩
  | 92 => ⟨S850000x1, .i32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000x128, .f32⟩
  | 110 => ⟨S850000x1, .f32⟩
  | 111 => ⟨S850000x128, .f32⟩
  | 112 => ⟨S850000x128, .f32⟩
  | 113 => ⟨S_, .f32⟩
  | 114 => ⟨S50000x128, .f32⟩
  | 115 => ⟨S850000x1, .i32⟩
  | 116 => ⟨S50000x128, .f32⟩
  | 117 => ⟨S1x128, .f32⟩
  | 118 => ⟨S50000x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S50000x128, .f32⟩
  | 125 => ⟨S50000x128, .f32⟩
  | 126 => ⟨S_, .f32⟩
  | 127 => ⟨S50000x128, .f32⟩
  | _ => ⟨S50000x256, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call1_cst : Ref sig .tc := ⟨.hbm, 74, rfl⟩
abbrev main_call1_v0 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_call2_cst : Ref sig .tc := ⟨.hbm, 97, rfl⟩
abbrev main_call2_v0 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_c_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_15 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_16 : Ref sig .tc := ⟨.hbm, 126, rfl⟩
abbrev main_v92 : Ref sig .tc := ⟨.hbm, 127, rfl⟩
abbrev main_v93 : Ref sig .tc := ⟨.hbm, 128, rfl⟩
abbrev main_cst_17 : Ref sig .tc := ⟨.hbm, 129, rfl⟩
abbrev main_v94 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S800000 : S_.BroadcastsInDim S800000 (![] : Fin 0 → Fin S800000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  WHAT BOTH PROGRAMS COMPUTE, as one function of the ten argument arrays, in the host's operations.

  The graph has 50000 nodes and 800000 given edges (row 0 of the edge array the sources, row 1 the targets); a self-loop
  is appended for every node, so there are 850000 edges.  A given edge has weight 1 and a self-loop weight 2.  The degree
  of a node is the sum of the weights of the edges that end in it; `dinv` is its inverse square root where the degree is
  positive and 0 elsewhere; the coefficient of an edge s → d is dinv(s) · weight · dinv(d) (a negative index is first
  wrapped by adding 50000).  One aggregation layer takes a [50000, 128] array h of node features and returns, per node,
  the sum over the edges that end in it of coefficient · h(source), plus a bias row: write agg(h, b).  With
  h1 = relu(agg(x·W1, b1)), h2 = relu(agg(h1·W2, b2)) and h3 = agg(h2·We, be), the network is sigmoid(h3·Wf + bf), the
  sigmoid spelt 1 / (1 + exp(−y)).
-/
import proofs.«141948_j71322226917733_1_alg».proof.Proof.Gen.ReferenceIdeal

noncomputable section

namespace Cert.ReferenceIdeal.Spec

open Cert.ReferenceIdeal Cert.ReferenceIdeal.Gen Idealize.ShloMosaic Idealize.ShloMosaic.TcCoe Idealize.SL.Sem

variable {F : FTy → Type} [FloatOps F]

/-- The source node of every edge: row 0 of the edge array, then the 50000 self-loops' nodes 0 … 49999. -/
def src (e : IVec S2x800000 32) : IVec S850000 32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The target node of every edge: row 1 of the edge array, then the self-loops' nodes. -/
def dst (e : IVec S2x800000 32) : IVec S850000 32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- The edge weights: 1 on the 800000 given edges, 2 on the 50000 self-loops. -/
def ew : FVec F S850000 .f32 :=
  concatenate S850000 0 [⟨S800000, (broadcastInDim S800000 ![] bcast_S_S800000 (constant S_ .f32 0x3F800000#32))⟩, ⟨S50000, (broadcastInDim S50000 ![] bcast_S_S50000 (constant S_ .f32 0x40000000#32))⟩] concatenates_S800000_S50000_S850000_d0

/-- The sum, per node, of the weights `w` of the edges whose target `d` it is. -/
def degOf (d : IVec S850000 32) (w : FVec F S850000 .f32) : FVec F S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 d) w

/-- A node's degree: the sum of the weights of the edges that end in it. -/
def deg (e : IVec S2x800000 32) : FVec F S50000 .f32 :=
  degOf (dst e) ew

/-- `rs` where the mask `gt` is set, the scalar `z` elsewhere. -/
def dinvOf (gt : IVec S50000 1) (rs : FVec F S50000 .f32) (z : FVec F S_ .f32) : FVec F S50000 .f32 :=
  select gt rs (broadcastInDim S50000 ![] bcast_S_S50000 (id z))

/-- The inverse square root of the degree where it is positive, 0 elsewhere. -/
def dinv (e : IVec S2x800000 32) : FVec F S50000 .f32 :=
  dinvOf (cmpf (F := F) .ogt (deg e) (broadcastInDim S50000 ![] bcast_S_S50000 (constant S_ .f32 0x00000000#32))) (Host.rsqrt (deg (F := F) e)) (constant S_ .f32 0x00000000#32)

/-- A gather index with a negative value wrapped by adding the number of nodes. -/
def wrap (s : IVec S850000 32) : IVec S850000 32 :=
  select (cmpi .slt s (broadcastInDim S850000 ![] bcast_S_S850000 (constantI S_ 32 0#32))) (addi s (broadcastInDim S850000 ![] bcast_S_S850000 (constantI S_ 32 50000#32))) s

/-- The coefficient of every edge s → d from the nodes' factors `di` and the edge weights `w`: di(s) · w · di(d). -/
def coeff (di : FVec F S50000 .f32) (s d : IVec S850000 32) (w : FVec F S850000 .f32) : FVec F S850000 .f32 :=
  mulf (mulf (Host.gather gather_S50000_S850000x1_S850000_n_0_n_n_0_1_1 di (broadcastInDim S850000x1 ![0] bcast_S850000_S850000x1_0 (wrap s))) w) (Host.gather gather_S50000_S850000x1_S850000_n_0_n_n_0_1_1 di (broadcastInDim S850000x1 ![0] bcast_S850000_S850000x1_0 (wrap d)))

/-- The coefficient of every edge s → d: dinv(s) · weight · dinv(d). -/
def norm (e : IVec S2x800000 32) : FVec F S850000 .f32 :=
  coeff (dinv e) (src e) (dst e) ew

/-- One aggregation layer: per node, the sum over the edges ending in it of coefficient · h(source), plus the bias row. -/
def agg (h : FVec F S50000x128 .f32) (s d : IVec S850000 32) (n : FVec F S850000 .f32) (b : FVec F S128 .f32) : FVec F S50000x128 .f32 :=
  addf (Host.scatterAdd scatter_S50000x128_S850000x1_S850000x128_1_0_0_1 (broadcastInDim S50000x128 ![] bcast_S_S50000x128 (constant S_ .f32 0x00000000#32)) (broadcastInDim S850000x1 ![0] bcast_S850000_S850000x1_0 d) (mulf (Host.gather gather_S50000x128_S850000x1_S850000x128_1_0_n_n_0_1_1128 h (broadcastInDim S850000x1 ![0] bcast_S850000_S850000x1_0 (wrap s))) (broadcastInDim S850000x128 ![0, 1] bcast_S850000x1_S850000x128_0_1 (broadcastInDim S850000x1 ![0] bcast_S850000_S850000x1_0 n)))) (broadcastInDim S50000x128 ![0, 1] bcast_S1x128_S50000x128_0_1 (broadcastInDim S1x128 ![1] bcast_S128_S1x128_1 b))

/-- max(x, 0), entry by entry. -/
def relu (x : FVec F S50000x128 .f32) : FVec F S50000x128 .f32 :=
  maximumf x (broadcastInDim S50000x128 ![] bcast_S_S50000x128 (constant S_ .f32 0x00000000#32))

/-- The first layer's product, [50000, 256] · [256, 128]. -/
def dotA (x : FVec F S50000x256 .f32) (w : FVec F S256x128 .f32) : FVec F S50000x128 .f32 :=
  Host.dotGeneral dot_S50000x256_S256x128_S50000x128_1_0_0_1_n_n none x w

/-- The other layers' product, [50000, 128] · [128, 128]. -/
def dotB (x : FVec F S50000x128 .f32) (w : FVec F S128x128 .f32) : FVec F S50000x128 .f32 :=
  Host.dotGeneral dot_S50000x128_S128x128_S50000x128_1_0_0_1_n_n none x w

/-- A [1, 128] row repeated over the 50000 nodes. -/
def rows (b : FVec F S1x128 .f32) : FVec F S50000x128 .f32 :=
  broadcastInDim S50000x128 ![0, 1] bcast_S1x128_S50000x128_0_1 b

/-- 1 / (1 + exp(−y)), entry by entry, in the host's operations. -/
def sigmoid (y : FVec F S50000x128 .f32) : FVec F S50000x128 .f32 :=
  Host.divf (broadcastInDim S50000x128 ![] bcast_S_S50000x128 (constant S_ .f32 0x3F800000#32)) (addf (broadcastInDim S50000x128 ![] bcast_S_S50000x128 (constant S_ .f32 0x3F800000#32)) (Host.exp (Host.negf y)))

/-- The last layer on node features `h`: sigmoid(h · Wf + the bias row). -/
def last (h : FVec F S50000x128 .f32) (wf : FVec F S128x128 .f32) (b : FVec F S1x128 .f32) : FVec F S50000x128 .f32 :=
  sigmoid (addf (dotB h wf) (rows b))

/-- The three aggregation layers. -/
def hidden (x : FVec F S50000x256 .f32) (e : IVec S2x800000 32) (w1 : FVec F S256x128 .f32) (b1 : FVec F S128 .f32)
    (w2 : FVec F S128x128 .f32) (b2 : FVec F S128 .f32) (we : FVec F S128x128 .f32) (be : FVec F S128 .f32) : FVec F S50000x128 .f32 :=
  agg (dotB (relu (agg (dotB (relu (agg (dotA x w1) (src e) (dst e) (norm e) b1)) w2) (src e) (dst e) (norm e) b2)) we) (src e) (dst e) (norm e) be

/-- The whole network. -/
def out (x : FVec F S50000x256 .f32) (e : IVec S2x800000 32) (w1 : FVec F S256x128 .f32) (b1 : FVec F S128 .f32)
    (w2 : FVec F S128x128 .f32) (b2 : FVec F S128 .f32) (we : FVec F S128x128 .f32) (be : FVec F S128 .f32)
    (wf : FVec F S128x128 .f32) (bf : FVec F S128 .f32) : FVec F S50000x128 .f32 :=
  last (hidden x e w1 b1 w2 b2 we be) wf (broadcastInDim S1x128 ![1] bcast_S128_S1x128_1 bf)

/-! ## Equal operands give equal results -/

theorem coeff_congr {di di' : FVec F S50000 .f32} {s s' d d' : IVec S850000 32} {w w' : FVec F S850000 .f32}
    (h1 : di = di') (h2 : s = s') (h3 : d = d') (h4 : w = w') : coeff di s d w = coeff di' s' d' w' := by
  subst h1 h2 h3 h4; rfl

theorem dinvOf_congr {gt gt' : IVec S50000 1} {rs rs' : FVec F S50000 .f32} {z z' : FVec F S_ .f32}
    (h1 : gt = gt') (h2 : rs = rs') (h3 : z = z') : dinvOf gt rs z = dinvOf gt' rs' z' := by
  subst h1 h2 h3; rfl

theorem agg_congr {h h' : FVec F S50000x128 .f32} {s s' d d' : IVec S850000 32} {n n' : FVec F S850000 .f32} {b b' : FVec F S128 .f32}
    (hh : h = h') (hs : s = s') (hd : d = d') (hn : n = n') (hb : b = b') : agg h s d n b = agg h' s' d' n' b' := by
  subst hh hs hd hn hb; rfl

theorem dotA_congr {x x' : FVec F S50000x256 .f32} {w w' : FVec F S256x128 .f32} (hx : x = x') (hw : w = w') : dotA x w = dotA x' w' := by
  subst hx hw; rfl

theorem dotB_congr {x x' : FVec F S50000x128 .f32} {w w' : FVec F S128x128 .f32} (hx : x = x') (hw : w = w') : dotB x w = dotB x' w' := by
  subst hx hw; rfl

theorem last_congr {h h' : FVec F S50000x128 .f32} {w w' : FVec F S128x128 .f32} {b b' : FVec F S1x128 .f32}
    (hh : h = h') (hw : w = w') (hb : b = b') : last h w b = last h' w' b' := by
  subst hh hw hb; rfl

end Cert.ReferenceIdeal.Spec

end
-- ==== Proof.RefValue.lean ====
/-
  The reference's result as the network function of its ten argument arrays.  The generated run states the result buffer as
  one long term of the arguments in which every shared intermediate — the edges' sources, targets and coefficients, each
  layer's features — is written out at every use; naming those intermediates gives the network function, and the two are
  the same term once the names are unfolded.
-/
import proofs.«141948_j71322226917733_1_alg».proof.Proof.ReferenceRun
import proofs.«141948_j71322226917733_1_alg».proof.Proof.Spec

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 8192 in
/-- The result buffer's term of the argument arrays is the network function of them. -/
theorem result_eq (m : (ℓ : Loc nD τ sig) → Buf (Elt F) ℓ) (c : Dev nD) :
    Cert.ReferenceIdeal.Value.res_main_v95 m c
      = Cert.ReferenceIdeal.Spec.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.Value.res_main_v95
  rfl

end Cert.ReferenceIdeal.RefValue

end
-- ==== Proof.KernelRun.lean ====
/-
  The idealized kernel's run with its RESULT named.  The program is four pipelined matrix products among
  stretches of host operations; the buffer contents at every boundary between them are a fold from the launch
  memory, and the last boundary's contents are what every final state holds in each unscoped buffer.  So the
  result array ends at the last boundary's contents of the result buffer, and every argument array ends as
  launched.
-/
import proofs.«141948_j71322226917733_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault; the result array then holds
    the last boundary's contents of its buffer, and the ten argument arrays are unchanged. -/
theorem run_result : θ_run defs (onTc (τ := τ) (main (F := F))) ⟨m, fun _ => 0, ρ⟩ (fun r => ∀ c : Dev nD,
      r.2.mem ((c.tc : Thread nD τ).loc main_v87) = W12 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v87 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.ResultRun

end
-- ==== Proof.Carry.lean ====
/-
  Which buffers keep their contents across the boundaries between the program's segments.  A host stretch changes
  only the buffers its operations write, and a pallas_call only its result array; so an argument array holds its launch
  contents at every boundary, and the three arrays computed once before the first product — the edges' sources, their
  targets and their coefficients — hold at the entries of the later stretches what they held at the first product's entry.
-/
import proofs.«141948_j71322226917733_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## The argument arrays hold their launch contents where they are read -/

/-- Argument 0 at boundary 3 is as launched. -/
theorem W3_arg0 : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 2 at boundary 3 is as launched. -/
theorem W3_arg2 : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument 3 at boundary 4 is as launched. -/
theorem W4_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Argument 4 at boundary 6 is as launched. -/
theorem W6_arg4 : W6 m ρ c (Proc.devRef .tc main_arg4) = m ((c : Thread nD τ).loc main_arg4) :=
  calc W6 m ρ c (Proc.devRef .tc main_arg4)
    _ = W5 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Argument 5 at boundary 7 is as launched. -/
theorem W7_arg5 : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := StableHlo.after_of_forall_not_mem (b := Proc.devRef .tc main_arg5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- Argument 6 at boundary 9 is as launched. -/
theorem W9_arg6 : W9 m ρ c (Proc.devRef .tc main_arg6) = m ((c : Thread nD τ).loc main_arg6) :=
  calc W9 m ρ c (Proc.devRef .tc main_arg6)
    _ = W8 m ρ c (Proc.devRef .tc main_arg6) := StableHlo.after_of_forall_not_mem (b := Proc.devRef .tc main_arg6) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- Argument 7 at boundary 10 is as launched. -/
theorem W10_arg7 : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- Argument 9 at boundary 10 is as launched. -/
theorem W10_arg9 : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := W7_of_ne m ρ c main_arg9 (by decide)
    _ = W5 m ρ c (Proc.devRef .tc main_arg9) := StableHlo.after_of_forall_not_mem (b := Proc.devRef .tc main_arg9) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- Argument 8 at boundary 11 is as launched. -/
theorem W11_arg8 : W11 m ρ c (Proc.devRef .tc main_arg8) = m ((c : Thread nD τ).loc main_arg8) :=
  calc W11 m ρ c (Proc.devRef .tc main_arg8)
    _ = W10 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- Argument 1 at boundary 1 is as launched. -/
theorem W1_arg1 : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The edge arrays at the later stretches' entries are those of the first product's entry -/

/-- `main_v5` at boundary 4 is what it was at boundary 3. -/
theorem W4_v5 : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

/-- `main_v5` at boundary 7 is what it was at boundary 3. -/
theorem W7_v5 : W7 m ρ c (Proc.devRef .tc main_v5) = W3 m ρ c (Proc.devRef .tc main_v5) :=
  calc W7 m ρ c (Proc.devRef .tc main_v5)
    _ = W6 m ρ c (Proc.devRef .tc main_v5) := W7_of_ne m ρ c main_v5 (by decide)
    _ = W5 m ρ c (Proc.devRef .tc main_v5) := StableHlo.after_of_forall_not_mem (b := Proc.devRef .tc main_v5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v5) := W4_of_ne m ρ c main_v5 (by decide)

/-- `main_v5` at boundary 10 is what it was at boundary 3. -/
theorem W10_v5 : W10 m ρ c (Proc.devRef .tc main_v5) = W3 m ρ c (Proc.devRef .tc main_v5) :=
  calc W10 m ρ c (Proc.devRef .tc main_v5)
    _ = W9 m ρ c (Proc.devRef .tc main_v5) := W10_of_ne m ρ c main_v5 (by decide)
    _ = W8 m ρ c (Proc.devRef .tc main_v5) := StableHlo.after_of_forall_not_mem (b := Proc.devRef .tc main_v5) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v5) := StableHlo.after_of_forall_not_mem (b := Proc.devRef .tc main_v5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v5) := W7_of_ne m ρ c main_v5 (by decide)
    _ = W5 m ρ c (Proc.devRef .tc main_v5) := StableHlo.after_of_forall_not_mem (b := Proc.devRef .tc main_v5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v5) := W4_of_ne m ρ c main_v5 (by decide)

/-- `main_v6` at boundary 4 is what it was at boundary 3. -/
theorem W4_v6 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- `main_v6` at boundary 7 is what it was at boundary 3. -/
theorem W7_v6 : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := StableHlo.after_of_forall_not_mem (b := Proc.devRef .tc main_v6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

/-- `main_v6` at boundary 10 is what it was at boundary 3. -/
theorem W10_v6 : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := StableHlo.after_of_forall_not_mem (b := Proc.devRef .tc main_v6) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v6) := W7_of_ne m ρ c main_v6 (by decide)
    _ = W5 m ρ c (Proc.devRef .tc main_v6) := StableHlo.after_of_forall_not_mem (b := Proc.devRef .tc main_v6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

/-- `main_v32` at boundary 4 is what it was at boundary 3. -/
theorem W4_v32 : W4 m ρ c (Proc.devRef .tc main_v32) = W3 m ρ c (Proc.devRef .tc main_v32) :=
  calc W4 m ρ c (Proc.devRef .tc main_v32)
    _ = W3 m ρ c (Proc.devRef .tc main_v32) := W4_of_ne m ρ c main_v32 (by decide)

/-- `main_v32` at boundary 7 is what it was at boundary 3. -/
theorem W7_v32 : W7 m ρ c (Proc.devRef .tc main_v32) = W3 m ρ c (Proc.devRef .tc main_v32) :=
  calc W7 m ρ c (Proc.devRef .tc main_v32)
    _ = W6 m ρ c (Proc.devRef .tc main_v32) := W7_of_ne m ρ c main_v32 (by decide)
    _ = W5 m ρ c (Proc.devRef .tc main_v32) := StableHlo.after_of_forall_not_mem (b := Proc.devRef .tc main_v32) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v32) := StableHlo.after_of_forall_not_mem (b := Proc.devRef .tc main_v32) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v32) := W4_of_ne m ρ c main_v32 (by decide)

/-- `main_v32` at boundary 10 is what it was at boundary 3. -/
theorem W10_v32 : W10 m ρ c (Proc.devRef .tc main_v32) = W3 m ρ c (Proc.devRef .tc main_v32) :=
  calc W10 m ρ c (Proc.devRef .tc main_v32)
    _ = W9 m ρ c (Proc.devRef .tc main_v32) := W10_of_ne m ρ c main_v32 (by decide)
    _ = W8 m ρ c (Proc.devRef .tc main_v32) := StableHlo.after_of_forall_not_mem (b := Proc.devRef .tc main_v32) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v32) := StableHlo.after_of_forall_not_mem (b := Proc.devRef .tc main_v32) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v32) := W7_of_ne m ρ c main_v32 (by decide)
    _ = W5 m ρ c (Proc.devRef .tc main_v32) := StableHlo.after_of_forall_not_mem (b := Proc.devRef .tc main_v32) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v32) := StableHlo.after_of_forall_not_mem (b := Proc.devRef .tc main_v32) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v32) := W4_of_ne m ρ c main_v32 (by decide)

end Cert.KernelIdeal.Carry

end
-- ==== Proof.RefProduct.lean ====
/-
  The reference's two matrix products read at an index.  At the ideal values the host's `dot_general` of a
  [50000, K] array with a [K, 128] array is, at (r, q), the sum over k < K of X(r, k) · W(k, q): no rounding and no
  summation order is left in it.  K is 256 for the first layer and 128 for the other three.
-/
import proofs.«141948_j71322226917733_1_alg».proof.Proof.Gen.ReferenceIdeal
import Idealize.ShloMosaic.Lib.ValueIdx
import Idealize.ShloMosaic.PureOps.Ideal.Laws

noncomputable section

namespace Cert.ReferenceIdeal.Product

open Cert.ReferenceIdeal Cert.ReferenceIdeal.Gen Idealize.ShloMosaic Idealize.ShloMosaic.TcCoe Idealize.SL.Sem

/-! ## The product over 256 contraction indices -/

/-- The left operand's index at row `i 0`, contraction index `k`. -/
abbrev lidxA (i : S50000x128.Idx) (k : Fin 256) : S50000x256.Idx := fun a => match a with
  | ⟨0, _⟩ => ⟨(i 0).val, (i 0).isLt⟩
  | ⟨1, _⟩ => ⟨k.val, k.isLt⟩
/-- The right operand's index at contraction index `k`, column `i 1`. -/
abbrev ridxA (i : S50000x128.Idx) (k : Fin 256) : S256x128.Idx := fun a => match a with
  | ⟨0, _⟩ => ⟨k.val, k.isLt⟩
  | ⟨1, _⟩ => ⟨(i 1).val, (i 1).isLt⟩

theorem lhsA_0 (i : S50000x128.Idx) (q : dot_S50000x256_S256x128_S50000x128_1_0_0_1_n_n.contr.Idx) : (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl
theorem lhsA_1 (i : S50000x128.Idx) (q : dot_S50000x256_S256x128_S50000x128_1_0_0_1_n_n.contr.Idx) : (dot_S50000x256_S256x128_S50000x128_1_0_0_1_n_n.lhsIdx i q 1).val = (q ⟨0, by decide⟩).val :=
  dot_S50000x256_S256x128_S50000x128_1_0_0_1_n_n.lhsIdx_val_of_single rfl i q
theorem rhsA_0 (i : S50000x128.Idx) (q : dot_S50000x256_S256x128_S50000x128_1_0_0_1_n_n.contr.Idx) : (dot_S50000x256_S256x128_S50000x128_1_0_0_1_n_n.rhsIdx i q 0).val = (q ⟨0, by decide⟩).val :=
  dot_S50000x256_S256x128_S50000x128_1_0_0_1_n_n.rhsIdx_val_of_single rfl i q
theorem rhsA_1 (i : S50000x128.Idx) (q : dot_S50000x256_S256x128_S50000x128_1_0_0_1_n_n.contr.Idx) : (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl

/-- The host's matrix product read at `i` at the ideal values: the sum over the contraction index of the products of
    the operands' entries. -/
theorem dotA_apply (X : FVec Ideal S50000x256 .f32) (W : FVec Ideal S256x128 .f32) (i : S50000x128.Idx) :
    Host.dotGeneral (F := Ideal) (φ₁ := .f32) (φ₂ := .f32) dot_S50000x256_S256x128_S50000x128_1_0_0_1_n_n none X W i = ∑ k : Fin 256, X (lidxA i k) * W (ridxA i k) := by
  simp only [Host.dotGeneral]
  rw [Ideal.dotGeneral_apply, ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx i ((ValueIdx.contrEquiv1 dot_S50000x256_S256x128_S50000x128_1_0_0_1_n_n 256 rfl rfl).symm k) = lidxA i k := funext fun a => Fin.ext (by
    match a with
    | ⟨0, _⟩ => exact lhsA_0 _ _
    | ⟨1, _⟩ => exact (lhsA_1 _ _).trans hk)
  have er : dot_S50000x256_S256x128_S50000x128_1_0_0_1_n_n.rhsIdx i ((ValueIdx.contrEquiv1 dot_S50000x256_S256x128_S50000x128_1_0_0_1_n_n 256 rfl rfl).symm k) = ridxA i k := funext fun a => Fin.ext (by
    match a with
    | ⟨0, _⟩ => exact (rhsA_0 _ _).trans hk
    | ⟨1, _⟩ => exact rhsA_1 _ _)
  rw [el, er]

/-! ## The product over 128 contraction indices -/

/-- The left operand's index at row `i 0`, contraction index `k`. -/
abbrev lidxB (i : S50000x128.Idx) (k : Fin 128) : S50000x128.Idx := fun a => match a with
  | ⟨0, _⟩ => ⟨(i 0).val, (i 0).isLt⟩
  | ⟨1, _⟩ => ⟨k.val, k.isLt⟩
/-- The right operand's index at contraction index `k`, column `i 1`. -/
abbrev ridxB (i : S50000x128.Idx) (k : Fin 128) : S128x128.Idx := fun a => match a with
  | ⟨0, _⟩ => ⟨k.val, k.isLt⟩
  | ⟨1, _⟩ => ⟨(i 1).val, (i 1).isLt⟩

theorem lhsB_0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhsB_1 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem rhsB_0 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem rhsB_1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's matrix product read at `i` at the ideal values: the sum over the contraction index of the products of
    the operands' entries. -/
theorem dotB_apply (X : FVec Ideal S50000x128 .f32) (W : FVec Ideal S128x128 .f32) (i : S50000x128.Idx) :
    Host.dotGeneral (F := Ideal) (φ₁ := .f32) (φ₂ := .f32) dot_S50000x128_S128x128_S50000x128_1_0_0_1_n_n none X W i = ∑ k : Fin 128, X (lidxB i k) * W (ridxB i k) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidxB i k := funext fun a => Fin.ext (by
    match a with
    | ⟨0, _⟩ => exact lhsB_0 _ _
    | ⟨1, _⟩ => exact (lhsB_1 _ _).trans hk)
  have er : dot_S50000x128_S128x128_S50000x128_1_0_0_1_n_n.rhsIdx i ((ValueIdx.contrEquiv1 dot_S50000x128_S128x128_S50000x128_1_0_0_1_n_n 128 rfl rfl).symm k) = ridxB i k := funext fun a => Fin.ext (by
    match a with
    | ⟨0, _⟩ => exact (rhsB_0 _ _).trans hk
    | ⟨1, _⟩ => exact rhsB_1 _ _)
  rw [el, er]

end Cert.ReferenceIdeal.Product

end
-- ==== Proof.Product0.lean ====
/-
  REGION 0: the first layer's product x · W1.
  The pallas_call runs over ten grid points; point t stages rows 5000·t … 5000·t + 4999 of the left operand and the
  whole right operand, multiplies them into a zero accumulator, and writes the product back as rows
  5000·t … 5000·t + 4999 of the result.  At the ideal values the block product at (r, q) is Σₖ x(r, k) · w(k, q), the
  change of float format being the identity there, and the host's whole-array product at (5000·t + r, q) is the same sum
  over the same factors.  The ten row blocks tile the result, so the result array after the region is the whole-array
  product of the two operand arrays as the region finds them.
-/
import proofs.«141948_j71322226917733_1_alg».proof.Proof.Gen.KernelIdeal.Frame
import proofs.«141948_j71322226917733_1_alg».proof.Proof.RefProduct
import Idealize.ShloMosaic.Lib.Pipeline.Value
import Idealize.ShloMosaic.Lib.ValueIdx
import Idealize.ShloMosaic.PureOps.Ideal.Laws

set_option maxRecDepth 16384

noncomputable section

namespace Cert.KernelIdeal.Product0

open Cert.KernelIdeal Cert.KernelIdeal.Gen
open Idealize.ShloMosaic Idealize.ShloMosaic.TcCoe Idealize.SL.Sem
open Idealize.ShloMosaic.Pipeline (Dat Cfg Window)

/-! ## The block product at an index -/

/-- The left block's index at row `j 0`, contraction index `k`. -/
abbrev lblk (j : S5000x128.Idx) (k : Fin 256) : S5000x256.Idx := fun a => match a with
  | ⟨0, _⟩ => ⟨(j 0).val, (j 0).isLt⟩
  | ⟨1, _⟩ => ⟨k.val, k.isLt⟩
/-- The right operand's index at contraction index `k`, column `j 1`. -/
abbrev rblk (j : S5000x128.Idx) (k : Fin 256) : S256x128.Idx := fun a => match a with
  | ⟨0, _⟩ => ⟨k.val, k.isLt⟩
  | ⟨1, _⟩ => ⟨(j 1).val, (j 1).isLt⟩

theorem lhs_0 (j : S5000x128.Idx) (q : dot_S5000x256_S256x128_S5000x128_1_0_0_1_n_n.contr.Idx) : (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_1 (j : S5000x128.Idx) (q : dot_S5000x256_S256x128_S5000x128_1_0_0_1_n_n.contr.Idx) : (dot_S5000x256_S256x128_S5000x128_1_0_0_1_n_n.lhsIdx j q 1).val = (q ⟨0, by decide⟩).val :=
  dot_S5000x256_S256x128_S5000x128_1_0_0_1_n_n.lhsIdx_val_of_single rfl j q
theorem rhs_0 (j : S5000x128.Idx) (q : dot_S5000x256_S256x128_S5000x128_1_0_0_1_n_n.contr.Idx) : (dot_S5000x256_S256x128_S5000x128_1_0_0_1_n_n.rhsIdx j q 0).val = (q ⟨0, by decide⟩).val :=
  dot_S5000x256_S256x128_S5000x128_1_0_0_1_n_n.rhsIdx_val_of_single rfl j q
theorem rhs_1 (j : S5000x128.Idx) (q : dot_S5000x256_S256x128_S5000x128_1_0_0_1_n_n.contr.Idx) : (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- A matrix product of two blocks into a zero accumulator, read at `j` at the ideal values: the sum over the
    contraction index of the products of the two blocks' entries. -/
theorem product_apply (l : FVec Ideal S5000x256 .bf16) (r : FVec Ideal S256x128 .bf16) (j : S5000x128.Idx) :
    matmul (F := Ideal) dot_S5000x256_S256x128_S5000x128_1_0_0_1_n_n none l r (constant (F := Ideal) S5000x128 .f32 0x00000000#32) j
      = ∑ k : Fin 256, l (lblk j k) * r (rblk j k) := by
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = lblk j k := funext fun a => Fin.ext (by
    match a with
    | ⟨0, _⟩ => exact lhs_0 _ _
    | ⟨1, _⟩ => exact (lhs_1 _ _).trans hk)
  have er : dot_S5000x256_S256x128_S5000x128_1_0_0_1_n_n.rhsIdx j ((ValueIdx.contrEquiv1 dot_S5000x256_S256x128_S5000x128_1_0_0_1_n_n 256 rfl rfl).symm k) = rblk j k := funext fun a => Fin.ext (by
    match a with
    | ⟨0, _⟩ => exact (rhs_0 _ _).trans hk
    | ⟨1, _⟩ => exact rhs_1 _ _)
  rw [el, er]

/-- The body's stored value at `j`: the two loaded blocks' product, the change of float format being the identity
    at the ideal values. -/
theorem payload_apply (x : Vec Ideal S5000x256 .f32) (w : Vec Ideal S256x128 .f32) (j : S5000x128.Idx) :
    k0_pay1 (F := Ideal) x w j = ∑ k : Fin 256, x (lblk j k) * w (rblk j k) := by
  unfold k0_pay1
  exact product_apply _ _ j

/-! ## One grid point against the whole-array product -/

/-- If the left block's row `j 0` is row `i 0` of the array `X` and the right block is the array `W`, entry by entry
    along the contraction, then the block product at `j` is the host's whole-array product of `X` and `W` at `i`. -/
theorem point_eq (X : FVec Ideal Cert.ReferenceIdeal.S50000x256 .f32) (W : FVec Ideal Cert.ReferenceIdeal.S256x128 .f32)
    (x : Vec Ideal S5000x256 .f32) (w : Vec Ideal S256x128 .f32) (j : S5000x128.Idx) (i : Cert.ReferenceIdeal.S50000x128.Idx)
    (hx : ∀ k : Fin 256, x (lblk j k) = X (Cert.ReferenceIdeal.Product.lidxA i k))
    (hw : ∀ k : Fin 256, w (rblk j k) = W (Cert.ReferenceIdeal.Product.ridxA i k)) :
    k0_pay1 (F := Ideal) x w j = Host.dotGeneral (F := Ideal) (φ₁ := .f32) (φ₂ := .f32) Cert.ReferenceIdeal.dot_S50000x256_S256x128_S50000x128_1_0_0_1_n_n none X W i := by
  rw [Cert.ReferenceIdeal.Product.dotA_apply, payload_apply]
  exact Finset.sum_congr rfl fun k _ => by rw [hx k, hw k]

/-! ## The region, at any entry contents `V` -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the left operand's and the result's row blocks move together,
    every other block index is 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem idx_onto : ∀ q : Fin 10, ∃ t : Fin cfg0.N, win0_2.index t = ![q.val, 0] :=
  (by decide +kernel : ∀ q : Fin 10, ∃ t : Fin grid0.N, win0_2.index t = ![q.val, 0])

/-- WHAT POINT `t` WRITES BACK is block `t` of the whole-array product of the operand arrays as the region finds them. -/
theorem flushed_eq (c : Dev nD) (t : Fin cfg0.N) :
    (dat0 V c).flushed 2 t = ((cfg0.win 2).blk t).view.read (Elt Ideal) (Host.dotGeneral (F := Ideal) (φ₁ := .f32) (φ₂ := .f32) Cert.ReferenceIdeal.dot_S50000x256_S256x128_S50000x128_1_0_0_1_n_n none (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  show k0_pay1 (F := Ideal) (iblk0 V c 0 t) (iblk0 V c 1 t) j = Host.dotGeneral (F := Ideal) (φ₁ := .f32) (φ₂ := .f32) Cert.ReferenceIdeal.dot_S50000x256_S256x128_S50000x128_1_0_0_1_n_n none (V c main_arg0) (V c main_arg2) (((cfg0.win 2).blk t).view.emb j)
  refine point_eq (V c main_arg0) (V c main_arg2) (iblk0 V c 0 t) (iblk0 V c 1 t) j (((cfg0.win 2).blk t).view.emb j) ?_ ?_
  · intro k
    show V c main_arg0 (((cfg0.win 0).blk t).view.emb (lblk j k)) = V c main_arg0 (Cert.ReferenceIdeal.Product.lidxA (((cfg0.win 2).blk t).view.emb j) k)
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · intro k
    show V c main_arg2 (((cfg0.win 1).blk t).view.emb (rblk j k)) = V c main_arg2 (Cert.ReferenceIdeal.Product.ridxA (((cfg0.win 2).blk t).view.emb j) k)
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- The ten row blocks cover the result array: row `r` lies in the block of the point whose block index is `r / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE RESULT ARRAY after the region: the whole-array product of the two operand arrays as the region finds them. -/
theorem array_eq (c : Dev nD) : (dat0 V c).arrAt 2 cfg0.N = (Host.dotGeneral (F := Ideal) (φ₁ := .f32) (φ₂ := .f32) Cert.ReferenceIdeal.dot_S50000x256_S256x128_S50000x128_1_0_0_1_n_n none (V c main_arg0) (V c main_arg2)) :=
  (dat0 V c).arrAt_eq_of_cover 2 _ (fun t _ => flushed_eq V c t) cover

end Cert.KernelIdeal.Product0

end
-- ==== Proof.Product1.lean ====
/-
  REGION 1: the second layer's product h · W2.
  The pallas_call runs over ten grid points; point t stages rows 5000·t … 5000·t + 4999 of the left operand and the
  whole right operand, multiplies them into a zero accumulator, and writes the product back as rows
  5000·t … 5000·t + 4999 of the result.  At the ideal values the block product at (r, q) is Σₖ x(r, k) · w(k, q), the
  change of float format being the identity there, and the host's whole-array product at (5000·t + r, q) is the same sum
  over the same factors.  The ten row blocks tile the result, so the result array after the region is the whole-array
  product of the two operand arrays as the region finds them.
-/
import proofs.«141948_j71322226917733_1_alg».proof.Proof.Gen.KernelIdeal.Frame
import proofs.«141948_j71322226917733_1_alg».proof.Proof.RefProduct
import Idealize.ShloMosaic.Lib.Pipeline.Value
import Idealize.ShloMosaic.Lib.ValueIdx
import Idealize.ShloMosaic.PureOps.Ideal.Laws

set_option maxRecDepth 16384

noncomputable section

namespace Cert.KernelIdeal.Product1

open Cert.KernelIdeal Cert.KernelIdeal.Gen
open Idealize.ShloMosaic Idealize.ShloMosaic.TcCoe Idealize.SL.Sem
open Idealize.ShloMosaic.Pipeline (Dat Cfg Window)

/-! ## The block product at an index -/

/-- The left block's index at row `j 0`, contraction index `k`. -/
abbrev lblk (j : S5000x128.Idx) (k : Fin 128) : S5000x128.Idx := fun a => match a with
  | ⟨0, _⟩ => ⟨(j 0).val, (j 0).isLt⟩
  | ⟨1, _⟩ => ⟨k.val, k.isLt⟩
/-- The right operand's index at contraction index `k`, column `j 1`. -/
abbrev rblk (j : S5000x128.Idx) (k : Fin 128) : S128x128.Idx := fun a => match a with
  | ⟨0, _⟩ => ⟨k.val, k.isLt⟩
  | ⟨1, _⟩ => ⟨(j 1).val, (j 1).isLt⟩

theorem lhs_0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem rhs_0 (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem rhs_1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix product of two blocks into a zero accumulator, read at `j` at the ideal values: the sum over the
    contraction index of the products of the two blocks' entries. -/
theorem product_apply (l : FVec Ideal S5000x128 .bf16) (r : FVec Ideal S128x128 .bf16) (j : S5000x128.Idx) :
    matmul (F := Ideal) dot_S5000x128_S128x128_S5000x128_1_0_0_1_n_n none l r (constant (F := Ideal) S5000x128 .f32 0x00000000#32) j
      = ∑ k : Fin 128, l (lblk j k) * r (rblk j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lblk j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = rblk j k := funext fun a => Fin.ext (by
    match a with
    | ⟨0, _⟩ => exact (rhs_0 _ _).trans hk
    | ⟨1, _⟩ => exact rhs_1 _ _)
  rw [el, er]

/-- The body's stored value at `j`: the two loaded blocks' product, the change of float format being the identity
    at the ideal values. -/
theorem payload_apply (x : Vec Ideal S5000x128 .f32) (w : Vec Ideal S128x128 .f32) (j : S5000x128.Idx) :
    k1_pay1 (F := Ideal) x w j = ∑ k : Fin 128, x (lblk j k) * w (rblk j k) := by
  unfold k1_pay1
  rw [shapeCast_self]
  exact product_apply _ _ j

/-! ## One grid point against the whole-array product -/

/-- If the left block's row `j 0` is row `i 0` of the array `X` and the right block is the array `W`, entry by entry
    along the contraction, then the block product at `j` is the host's whole-array product of `X` and `W` at `i`. -/
theorem point_eq (X : FVec Ideal Cert.ReferenceIdeal.S50000x128 .f32) (W : FVec Ideal Cert.ReferenceIdeal.S128x128 .f32)
    (x : Vec Ideal S5000x128 .f32) (w : Vec Ideal S128x128 .f32) (j : S5000x128.Idx) (i : Cert.ReferenceIdeal.S50000x128.Idx)
    (hx : ∀ k : Fin 128, x (lblk j k) = X (Cert.ReferenceIdeal.Product.lidxB i k))
    (hw : ∀ k : Fin 128, w (rblk j k) = W (Cert.ReferenceIdeal.Product.ridxB i k)) :
    k1_pay1 (F := Ideal) x w j = Host.dotGeneral (F := Ideal) (φ₁ := .f32) (φ₂ := .f32) Cert.ReferenceIdeal.dot_S50000x128_S128x128_S50000x128_1_0_0_1_n_n none X W i := by
  rw [Cert.ReferenceIdeal.Product.dotB_apply, payload_apply]
  exact Finset.sum_congr rfl fun k _ => by rw [hx k, hw k]

/-! ## The region, at any entry contents `V` -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the left operand's and the result's row blocks move together,
    every other block index is 0. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks is some point's. -/
theorem idx_onto : ∀ q : Fin 10, ∃ t : Fin cfg1.N, win1_2.index t = ![q.val, 0] :=
  (by decide +kernel : ∀ q : Fin 10, ∃ t : Fin grid1.N, win1_2.index t = ![q.val, 0])

/-- WHAT POINT `t` WRITES BACK is block `t` of the whole-array product of the operand arrays as the region finds them. -/
theorem flushed_eq (c : Dev nD) (t : Fin cfg1.N) :
    (dat1 V c).flushed 2 t = ((cfg1.win 2).blk t).view.read (Elt Ideal) (Host.dotGeneral (F := Ideal) (φ₁ := .f32) (φ₂ := .f32) Cert.ReferenceIdeal.dot_S50000x128_S128x128_S50000x128_1_0_0_1_n_n none (V c main_v50) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx_facts t
  funext j
  show k1_pay1 (F := Ideal) (iblk1 V c 0 t) (iblk1 V c 1 t) j = Host.dotGeneral (F := Ideal) (φ₁ := .f32) (φ₂ := .f32) Cert.ReferenceIdeal.dot_S50000x128_S128x128_S50000x128_1_0_0_1_n_n none (V c main_v50) (V c main_arg4) (((cfg1.win 2).blk t).view.emb j)
  refine point_eq (V c main_v50) (V c main_arg4) (iblk1 V c 0 t) (iblk1 V c 1 t) j (((cfg1.win 2).blk t).view.emb j) ?_ ?_
  · intro k
    show V c main_v50 (((cfg1.win 0).blk t).view.emb (lblk j k)) = V c main_v50 (Cert.ReferenceIdeal.Product.lidxB (((cfg1.win 2).blk t).view.emb j) k)
    refine congrArg (V c main_v50) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · intro k
    show V c main_arg4 (((cfg1.win 1).blk t).view.emb (rblk j k)) = V c main_arg4 (Cert.ReferenceIdeal.Product.ridxB (((cfg1.win 2).blk t).view.emb j) k)
    refine congrArg (V c main_arg4) ?_
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-- An index of the result array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v51).slice (win1_2.rect t)).set ↔ _
  rw [View.set_slice_whole, Rect.mem_set_unit]
  exact Iff.rfl

/-- The ten row blocks cover the result array: row `r` lies in the block of the point whose block index is `r / 5000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE RESULT ARRAY after the region: the whole-array product of the two operand arrays as the region finds them. -/
theorem array_eq (c : Dev nD) : (dat1 V c).arrAt 2 cfg1.N = (Host.dotGeneral (F := Ideal) (φ₁ := .f32) (φ₂ := .f32) Cert.ReferenceIdeal.dot_S50000x128_S128x128_S50000x128_1_0_0_1_n_n none (V c main_v50) (V c main_arg4)) :=
  (dat1 V c).arrAt_eq_of_cover 2 _ (fun t _ => flushed_eq V c t) cover

end Cert.KernelIdeal.Product1

end
-- ==== Proof.Product2.lean ====
/-
  REGION 2: the third layer's product h · We.
  The pallas_call runs over ten grid points; point t stages rows 5000·t … 5000·t + 4999 of the left operand and the
  whole right operand, multiplies them into a zero accumulator, and writes the product back as rows
  5000·t … 5000·t + 4999 of the result.  At the ideal values the block product at (r, q) is Σₖ x(r, k) · w(k, q), the
  change of float format being the identity there, and the host's whole-array product at (5000·t + r, q) is the same sum
  over the same factors.  The ten row blocks tile the result, so the result array after the region is the whole-array
  product of the two operand arrays as the region finds them.
-/
import proofs.«141948_j71322226917733_1_alg».proof.Proof.Gen.KernelIdeal.Frame
import proofs.«141948_j71322226917733_1_alg».proof.Proof.RefProduct
import Idealize.ShloMosaic.Lib.Pipeline.Value
import Idealize.ShloMosaic.Lib.ValueIdx
import Idealize.ShloMosaic.PureOps.Ideal.Laws

set_option maxRecDepth 16384

noncomputable section

namespace Cert.KernelIdeal.Product2

open Cert.KernelIdeal Cert.KernelIdeal.Gen
open Idealize.ShloMosaic Idealize.ShloMosaic.TcCoe Idealize.SL.Sem
open Idealize.ShloMosaic.Pipeline (Dat Cfg Window)

/-! ## The block product at an index -/

/-- The left block's index at row `j 0`, contraction index `k`. -/
abbrev lblk (j : S5000x128.Idx) (k : Fin 128) : S5000x128.Idx := fun a => match a with
  | ⟨0, _⟩ => ⟨(j 0).val, (j 0).isLt⟩
  | ⟨1, _⟩ => ⟨k.val, k.isLt⟩
/-- The right operand's index at contraction index `k`, column `j 1`. -/
abbrev rblk (j : S5000x128.Idx) (k : Fin 128) : S128x128.Idx := fun a => match a with
  | ⟨0, _⟩ => ⟨k.val, k.isLt⟩
  | ⟨1, _⟩ => ⟨(j 1).val, (j 1).isLt⟩

theorem lhs_0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem rhs_0 (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem rhs_1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix product of two blocks into a zero accumulator, read at `j` at the ideal values: the sum over the
    contraction index of the products of the two blocks' entries. -/
theorem product_apply (l : FVec Ideal S5000x128 .bf16) (r : FVec Ideal S128x128 .bf16) (j : S5000x128.Idx) :
    matmul (F := Ideal) dot_S5000x128_S128x128_S5000x128_1_0_0_1_n_n none l r (constant (F := Ideal) S5000x128 .f32 0x00000000#32) j
      = ∑ k : Fin 128, l (lblk j k) * r (rblk j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lblk j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = rblk j k := funext fun a => Fin.ext (by
    match a with
    | ⟨0, _⟩ => exact (rhs_0 _ _).trans hk
    | ⟨1, _⟩ => exact rhs_1 _ _)
  rw [el, er]

/-- The body's stored value at `j`: the two loaded blocks' product, the change of float format being the identity
    at the ideal values. -/
theorem payload_apply (x : Vec Ideal S5000x128 .f32) (w : Vec Ideal S128x128 .f32) (j : S5000x128.Idx) :
    k2_pay1 (F := Ideal) x w j = ∑ k : Fin 128, x (lblk j k) * w (rblk j k) := by
  unfold k2_pay1
  rw [shapeCast_self]
  exact product_apply _ _ j

/-! ## One grid point against the whole-array product -/

/-- If the left block's row `j 0` is row `i 0` of the array `X` and the right block is the array `W`, entry by entry
    along the contraction, then the block product at `j` is the host's whole-array product of `X` and `W` at `i`. -/
theorem point_eq (X : FVec Ideal Cert.ReferenceIdeal.S50000x128 .f32) (W : FVec Ideal Cert.ReferenceIdeal.S128x128 .f32)
    (x : Vec Ideal S5000x128 .f32) (w : Vec Ideal S128x128 .f32) (j : S5000x128.Idx) (i : Cert.ReferenceIdeal.S50000x128.Idx)
    (hx : ∀ k : Fin 128, x (lblk j k) = X (Cert.ReferenceIdeal.Product.lidxB i k))
    (hw : ∀ k : Fin 128, w (rblk j k) = W (Cert.ReferenceIdeal.Product.ridxB i k)) :
    k2_pay1 (F := Ideal) x w j = Host.dotGeneral (F := Ideal) (φ₁ := .f32) (φ₂ := .f32) Cert.ReferenceIdeal.dot_S50000x128_S128x128_S50000x128_1_0_0_1_n_n none X W i := by
  rw [Cert.ReferenceIdeal.Product.dotB_apply, payload_apply]
  exact Finset.sum_congr rfl fun k _ => by rw [hx k, hw k]

/-! ## The region, at any entry contents `V` -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the left operand's and the result's row blocks move together,
    every other block index is 0. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every one of the ten row blocks is some point's. -/
theorem idx_onto : ∀ q : Fin 10, ∃ t : Fin cfg2.N, win2_2.index t = ![q.val, 0] :=
  (by decide +kernel : ∀ q : Fin 10, ∃ t : Fin grid2.N, win2_2.index t = ![q.val, 0])

/-- WHAT POINT `t` WRITES BACK is block `t` of the whole-array product of the operand arrays as the region finds them. -/
theorem flushed_eq (c : Dev nD) (t : Fin cfg2.N) :
    (dat2 V c).flushed 2 t = ((cfg2.win 2).blk t).view.read (Elt Ideal) (Host.dotGeneral (F := Ideal) (φ₁ := .f32) (φ₂ := .f32) Cert.ReferenceIdeal.dot_S50000x128_S128x128_S50000x128_1_0_0_1_n_n none (V c main_v68) (V c main_arg6)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  show k2_pay1 (F := Ideal) (iblk2 V c 0 t) (iblk2 V c 1 t) j = Host.dotGeneral (F := Ideal) (φ₁ := .f32) (φ₂ := .f32) Cert.ReferenceIdeal.dot_S50000x128_S128x128_S50000x128_1_0_0_1_n_n none (V c main_v68) (V c main_arg6) (((cfg2.win 2).blk t).view.emb j)
  refine point_eq (V c main_v68) (V c main_arg6) (iblk2 V c 0 t) (iblk2 V c 1 t) j (((cfg2.win 2).blk t).view.emb j) ?_ ?_
  · intro k
    show V c main_v68 (((cfg2.win 0).blk t).view.emb (lblk j k)) = V c main_v68 (Cert.ReferenceIdeal.Product.lidxB (((cfg2.win 2).blk t).view.emb j) k)
    refine congrArg (V c main_v68) ?_
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · intro k
    show V c main_arg6 (((cfg2.win 1).blk t).view.emb (rblk j k)) = V c main_arg6 (Cert.ReferenceIdeal.Product.ridxB (((cfg2.win 2).blk t).view.emb j) k)
    refine congrArg (V c main_arg6) ?_
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the result array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v69).slice (win2_2.rect t)).set ↔ _
  rw [View.set_slice_whole, Rect.mem_set_unit]
  exact Iff.rfl

/-- The ten row blocks cover the result array: row `r` lies in the block of the point whose block index is `r / 5000`. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- THE RESULT ARRAY after the region: the whole-array product of the two operand arrays as the region finds them. -/
theorem array_eq (c : Dev nD) : (dat2 V c).arrAt 2 cfg2.N = (Host.dotGeneral (F := Ideal) (φ₁ := .f32) (φ₂ := .f32) Cert.ReferenceIdeal.dot_S50000x128_S128x128_S50000x128_1_0_0_1_n_n none (V c main_v68) (V c main_arg6)) :=
  (dat2 V c).arrAt_eq_of_cover 2 _ (fun t _ => flushed_eq V c t) cover

end Cert.KernelIdeal.Product2

end
-- ==== Proof.Output3.lean ====
/-
  REGION 3: the last layer, sigmoid(h · Wf + bf).
  The pallas_call runs over ten grid points; point t stages rows 5000·t … 5000·t + 4999 of the node features h, the whole
  weight matrix and the one bias row, and writes back sigmoid(block · Wf + bias) as rows 5000·t … 5000·t + 4999 of the
  result.  At the ideal values the block's entry at (r, q) is logistic(Σₖ h(r, k) · Wf(k, q) + bias(q)), the change of float
  format being the identity there; the host's expression 1 / (1 + exp(−y)) is the same function of the extended real y,
  the logistic function being defined as that expression, corners included; and the host's product at (5000·t + r, q) is
  the same sum.  The ten row blocks tile the result, so the result array after the region is the last layer, in the
  host's operations, of the three operand arrays as the region finds them.
-/
import proofs.«141948_j71322226917733_1_alg».proof.Proof.Gen.KernelIdeal.Frame
import proofs.«141948_j71322226917733_1_alg».proof.Proof.RefProduct
import proofs.«141948_j71322226917733_1_alg».proof.Proof.Spec
import Idealize.ShloMosaic.Lib.IdealHost
import Idealize.ShloMosaic.Lib.Pipeline.Value
import Idealize.ShloMosaic.Lib.ValueIdx
import Idealize.ShloMosaic.PureOps.Ideal.Laws

set_option maxRecDepth 16384

noncomputable section

namespace Cert.KernelIdeal.Output3

open Cert.KernelIdeal Cert.KernelIdeal.Gen
open Idealize.ShloMosaic Idealize.ShloMosaic.TcCoe Idealize.SL.Sem
open Idealize.ShloMosaic.Pipeline (Dat Cfg Window)

/-! ## The block product at an index -/

/-- The left block's index at row `j 0`, contraction index `k`. -/
abbrev lblk (j : S5000x128.Idx) (k : Fin 128) : S5000x128.Idx := fun a => match a with
  | ⟨0, _⟩ => ⟨(j 0).val, (j 0).isLt⟩
  | ⟨1, _⟩ => ⟨k.val, k.isLt⟩
/-- The right operand's index at contraction index `k`, column `j 1`. -/
abbrev rblk (j : S5000x128.Idx) (k : Fin 128) : S128x128.Idx := fun a => match a with
  | ⟨0, _⟩ => ⟨k.val, k.isLt⟩
  | ⟨1, _⟩ => ⟨(j 1).val, (j 1).isLt⟩

theorem lhs_0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem rhs_0 (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem rhs_1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix product of two blocks into a zero accumulator, read at `j` at the ideal values: the sum over the
    contraction index of the products of the two blocks' entries. -/
theorem product_apply (l : FVec Ideal S5000x128 .bf16) (r : FVec Ideal S128x128 .bf16) (j : S5000x128.Idx) :
    matmul (F := Ideal) dot_S5000x128_S128x128_S5000x128_1_0_0_1_n_n none l r (constant (F := Ideal) S5000x128 .f32 0x00000000#32) j
      = ∑ k : Fin 128, l (lblk j k) * r (rblk j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lblk j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = rblk j k := funext fun a => Fin.ext (by
    match a with
    | ⟨0, _⟩ => exact (rhs_0 _ _).trans hk
    | ⟨1, _⟩ => exact rhs_1 _ _)
  rw [el, er]

/-- The bias block's index at column `j 1`. -/
abbrev bblk (j : S5000x128.Idx) : S1x128.Idx := fun a => match a with
  | ⟨0, _⟩ => ⟨0, Nat.one_pos⟩
  | ⟨1, _⟩ => ⟨(j 1).val, (j 1).isLt⟩

/-- The body's stored value at `j`: the logistic function of the two loaded blocks' product plus the bias row's
    entry, the change of float format being the identity at the ideal values. -/
theorem payload_apply (x : Vec Ideal S5000x128 .f32) (w : Vec Ideal S128x128 .f32) (b : Vec Ideal S1x128 .f32) (j : S5000x128.Idx) :
    k3_pay1 (F := Ideal) x w b j = Ideal.logistic ((∑ k : Fin 128, x (lblk j k) * w (rblk j k)) + b (bblk j)) := by
  unfold k3_pay1
  rw [shapeCast_self, shapeCast_self]
  show Ideal.logistic (_ + _) = Ideal.logistic (_ + _)
  refine congrArg Ideal.logistic (congrArg₂ (· + ·) (product_apply _ _ j) ?_)
  exact broadcastTo_apply _ _ j (bblk j) (fun a => by
    match a with
    | ⟨0, _⟩ => exact (if_pos rfl).symm
    | ⟨1, _⟩ => exact (if_neg (show ¬ ((128 : ℕ) = 1) by decide)).symm)

/-! ## The reference's last layer at an index -/

/-- The bias row's index at column `i 1`. -/
abbrev brow (i : Cert.ReferenceIdeal.S50000x128.Idx) : Cert.ReferenceIdeal.S1x128.Idx := fun a => match a with
  | ⟨0, _⟩ => ⟨0, Nat.one_pos⟩
  | ⟨1, _⟩ => ⟨(i 1).val, (i 1).isLt⟩

/-- The host's 1 / (1 + exp(−(H · Wf + bias))) at `i` is the logistic function of the sum of products plus the bias
    row's entry: the literal 1.0 is the real 1 and the logistic function is defined as that expression. -/
theorem last_apply (H : FVec Ideal Cert.ReferenceIdeal.S50000x128 .f32) (W : FVec Ideal Cert.ReferenceIdeal.S128x128 .f32) (B : FVec Ideal Cert.ReferenceIdeal.S1x128 .f32) (i : Cert.ReferenceIdeal.S50000x128.Idx) :
    Cert.ReferenceIdeal.Spec.last (F := Ideal) H W B i = Ideal.logistic ((∑ k : Fin 128, H (Cert.ReferenceIdeal.Product.lidxB i k) * W (Cert.ReferenceIdeal.Product.ridxB i k)) + B (brow i)) := by
  unfold Cert.ReferenceIdeal.Spec.last Cert.ReferenceIdeal.Spec.sigmoid Cert.ReferenceIdeal.Spec.rows Cert.ReferenceIdeal.Spec.dotB
  show Ideal.div (Ideal.ofBits .f32 0x3F800000#32) (Ideal.ofBits .f32 0x3F800000#32 + Ideal.exp (-(_ + _))) = _
  rw [Ideal.ofBits_one_f32]
  show Ideal.logistic (_ + _) = Ideal.logistic (_ + _)
  refine congrArg Ideal.logistic (congrArg₂ (· + ·) (Cert.ReferenceIdeal.Product.dotB_apply H W i) ?_)
  exact broadcastInDim_apply _ _ B i (brow i) (fun a => by
    match a with
    | ⟨0, _⟩ => exact (if_pos rfl).symm
    | ⟨1, _⟩ => exact (if_neg (show ¬ ((128 : ℕ) = 1) by decide)).symm)

/-! ## One grid point against the whole-array last layer -/

/-- If the features block's row `j 0` is row `i 0` of the array `H`, the weight block is the array `W` and the bias
    block is the row `B`, entry by entry, then the body's stored value at `j` is the last layer of `H`, `W`, `B` at `i`. -/
theorem point_eq (H : FVec Ideal Cert.ReferenceIdeal.S50000x128 .f32) (W : FVec Ideal Cert.ReferenceIdeal.S128x128 .f32) (B : FVec Ideal Cert.ReferenceIdeal.S1x128 .f32)
    (x : Vec Ideal S5000x128 .f32) (w : Vec Ideal S128x128 .f32) (b : Vec Ideal S1x128 .f32) (j : S5000x128.Idx) (i : Cert.ReferenceIdeal.S50000x128.Idx)
    (hx : ∀ k : Fin 128, x (lblk j k) = H (Cert.ReferenceIdeal.Product.lidxB i k))
    (hw : ∀ k : Fin 128, w (rblk j k) = W (Cert.ReferenceIdeal.Product.ridxB i k))
    (hb : b (bblk j) = B (brow i)) :
    k3_pay1 (F := Ideal) x w b j = Cert.ReferenceIdeal.Spec.last (F := Ideal) H W B i := by
  rw [last_apply, payload_apply, hb]
  exact congrArg (fun s => Ideal.logistic (s + B (brow i))) (Finset.sum_congr rfl fun k _ => by rw [hx k, hw k])

/-! ## The region, at any entry contents `V` -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the features' and the result's row blocks move together, every
    other block index is 0. -/
theorem idx_facts : ∀ t : Fin cfg3.N, win3_0.index t (0 : Fin 2) = win3_3.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (1 : Fin 2) = 0
    ∧ win3_3.index t (0 : Fin 2) ≤ 9 :=
  (by decide +kernel : ∀ t : Fin grid3.N, _)

/-- Every one of the ten row blocks is some point's. -/
theorem idx_onto : ∀ q : Fin 10, ∃ t : Fin cfg3.N, win3_3.index t = ![q.val, 0] :=
  (by decide +kernel : ∀ q : Fin 10, ∃ t : Fin grid3.N, win3_3.index t = ![q.val, 0])

/-- WHAT POINT `t` WRITES BACK is block `t` of the last layer of the operand arrays as the region finds them. -/
theorem flushed_eq (c : Dev nD) (t : Fin cfg3.N) :
    (dat3 V c).flushed 3 t = ((cfg3.win 3).blk t).view.read (Elt Ideal) (Cert.ReferenceIdeal.Spec.last (F := Ideal) (V c main_v85) (V c main_arg8) (V c main_v86)) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  funext j
  show k3_pay1 (F := Ideal) (iblk3 V c 0 t) (iblk3 V c 1 t) (iblk3 V c 2 t) j = Cert.ReferenceIdeal.Spec.last (F := Ideal) (V c main_v85) (V c main_arg8) (V c main_v86) (((cfg3.win 3).blk t).view.emb j)
  refine point_eq (V c main_v85) (V c main_arg8) (V c main_v86) (iblk3 V c 0 t) (iblk3 V c 1 t) (iblk3 V c 2 t) j (((cfg3.win 3).blk t).view.emb j) ?_ ?_ ?_
  · intro k
    show V c main_v85 (((cfg3.win 0).blk t).view.emb (lblk j k)) = V c main_v85 (Cert.ReferenceIdeal.Product.lidxB (((cfg3.win 3).blk t).view.emb j) k)
    refine congrArg (V c main_v85) ?_
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * k.val = k.val; omega
  · intro k
    show V c main_arg8 (((cfg3.win 1).blk t).view.emb (rblk j k)) = V c main_arg8 (Cert.ReferenceIdeal.Product.ridxB (((cfg3.win 3).blk t).view.emb j) k)
    refine congrArg (V c main_arg8) ?_
    funext a; apply Fin.ext
    match a with
    | ⟨0, _⟩ => show win3_1.index t (0 : Fin 2) * 128 + 1 * k.val = k.val; omega
    | ⟨1, _⟩ => show win3_1.index t (1 : Fin 2) * 128 + 1 * (j 1).val = win3_3.index t (1 : Fin 2) * 128 + 1 * (j 1).val; omega
  · show V c main_v86 (((cfg3.win 2).blk t).view.emb (bblk j)) = V c main_v86 (brow (((cfg3.win 3).blk t).view.emb j))
    refine congrArg (V c main_v86) ?_
    funext a; apply Fin.ext
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega

/-- An index of the result array is in point `t`'s block iff each coordinate is in the block's range on its axis. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v87).slice (win3_3.rect t)).set ↔ _
  rw [View.set_slice_whole, Rect.mem_set_unit]
  exact Iff.rfl

/-- The ten row blocks cover the result array: row `r` lies in the block of the point whose block index is `r / 5000`. -/
theorem cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- THE RESULT ARRAY after the region: the last layer of the three operand arrays as the region finds them. -/
theorem array_eq (c : Dev nD) : (dat3 V c).arrAt 3 cfg3.N = (Cert.ReferenceIdeal.Spec.last (F := Ideal) (V c main_v85) (V c main_arg8) (V c main_v86)) :=
  (dat3 V c).arrAt_eq_of_cover 3 _ (fun t _ => flushed_eq V c t) cover

end Cert.KernelIdeal.Output3

end
-- ==== Proof.Stages.lean ====
/-
  The idealized kernel's buffers at the boundaries between its segments, in the host's operations.

  Every host stretch is read at ANY contents `V` of the buffers it starts from: the buffer it ends by writing is one named
  stage of the network — the edges' sources, targets and weights, the degrees, their inverse roots, the edges' coefficients,
  one aggregation layer, a relu — applied to `V` at the buffers it reads.  Each of the first three pallas_calls leaves in its
  result array the whole-array product of its two operand arrays, and the last one the sigmoid of its product plus the
  bias row, which the host has reshaped from [128] to [1, 128]: the same row as the broadcast of it to [1, 128].
-/
import proofs.«141948_j71322226917733_1_alg».proof.Proof.Gen.KernelIdeal.Frame
import proofs.«141948_j71322226917733_1_alg».proof.Proof.Spec
import proofs.«141948_j71322226917733_1_alg».proof.Proof.Product0
import proofs.«141948_j71322226917733_1_alg».proof.Proof.Product1
import proofs.«141948_j71322226917733_1_alg».proof.Proof.Product2
import proofs.«141948_j71322226917733_1_alg».proof.Proof.Output3
import Idealize.ShloMosaic.Lib.StableHlo.Run
import Idealize.ShloMosaic.Lib.Pipeline.Value

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

/-! ## The first stretch: the edge arrays, the degrees and what the inverse root is selected from -/

/-- The sources of the 850000 edges. -/
theorem src_step (V : Valuation τ sig (Elt Ideal)) : StableHlo.after hostOps0 V (Proc.devRef .tc main_v5) = Cert.ReferenceIdeal.Spec.src (V (Proc.devRef .tc main_arg1)) := by
  simp only [hostOps0]
  after_results_simp <;> rfl

/-- The targets of the 850000 edges. -/
theorem dst_step (V : Valuation τ sig (Elt Ideal)) : StableHlo.after hostOps0 V (Proc.devRef .tc main_v6) = Cert.ReferenceIdeal.Spec.dst (V (Proc.devRef .tc main_arg1)) := by
  simp only [hostOps0]
  after_results_simp <;> rfl

/-- The weights of the 850000 edges. -/
theorem ew_step (V : Valuation τ sig (Elt Ideal)) : StableHlo.after hostOps0 V (Proc.devRef .tc main_v9) = Cert.ReferenceIdeal.Spec.ew (F := Ideal) := by
  simp only [hostOps0]
  after_results_simp <;> rfl

/-- Where the degree is positive. -/
theorem pos_step (V : Valuation τ sig (Elt Ideal)) : StableHlo.after hostOps0 V (Proc.devRef .tc main_v14) = cmpf (F := Ideal) .ogt (Cert.ReferenceIdeal.Spec.deg (F := Ideal) (V (Proc.devRef .tc main_arg1))) (broadcastInDim Cert.ReferenceIdeal.S50000 ![] Cert.ReferenceIdeal.Gen.bcast_S_S50000 (constant (F := Ideal) Cert.ReferenceIdeal.S_ .f32 0x00000000#32)) := by
  simp only [hostOps0]
  after_results_simp <;> rfl

/-- The inverse square roots of the degrees. -/
theorem rsqrt_step (V : Valuation τ sig (Elt Ideal)) : StableHlo.after hostOps0 V (Proc.devRef .tc main_v15) = Host.rsqrt (Cert.ReferenceIdeal.Spec.deg (F := Ideal) (V (Proc.devRef .tc main_arg1))) := by
  simp only [hostOps0]
  after_results_simp <;> rfl

/-- The scalar 0 the inverse root is replaced by where the degree is not positive. -/
theorem zero_step (V : Valuation τ sig (Elt Ideal)) : StableHlo.after hostOps0 V (Proc.devRef .tc main_cst_3) = constant (F := Ideal) Cert.ReferenceIdeal.S_ .f32 0x00000000#32 := by
  simp only [hostOps0]
  after_results_simp <;> rfl

/-! ## The second stretch: the selection -/

/-- The nodes' factors: the inverse root where the degree is positive, the scalar elsewhere. -/
theorem select_step (V : Valuation τ sig (Elt Ideal)) : StableHlo.after hostOps0_1 V (Proc.devRef .tc main_v16) = Cert.ReferenceIdeal.Spec.dinvOf (F := Ideal) (V (Proc.devRef .tc main_v14)) (V (Proc.devRef .tc main_v15)) (V (Proc.devRef .tc main_cst_3)) := by
  simp only [hostOps0_1]
  after_results_simp <;> rfl

theorem select_keeps_v5 (V : Valuation τ sig (Elt Ideal)) : StableHlo.after hostOps0_1 V (Proc.devRef .tc main_v5) = V (Proc.devRef .tc main_v5) :=
  StableHlo.after_of_forall_not_mem (b := Proc.devRef .tc main_v5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem select_keeps_v6 (V : Valuation τ sig (Elt Ideal)) : StableHlo.after hostOps0_1 V (Proc.devRef .tc main_v6) = V (Proc.devRef .tc main_v6) :=
  StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem select_keeps_v9 (V : Valuation τ sig (Elt Ideal)) : StableHlo.after hostOps0_1 V (Proc.devRef .tc main_v9) = V (Proc.devRef .tc main_v9) :=
  StableHlo.after_of_forall_not_mem (b := Proc.devRef .tc main_v9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## The third stretch: the coefficients -/

/-- The coefficients of the 850000 edges from the nodes' factors, the edges' ends and weights. -/
theorem coeff_step (V : Valuation τ sig (Elt Ideal)) : StableHlo.after hostOps0_2 V (Proc.devRef .tc main_v32) = Cert.ReferenceIdeal.Spec.coeff (F := Ideal) (V (Proc.devRef .tc main_v16)) (V (Proc.devRef .tc main_v5)) (V (Proc.devRef .tc main_v6)) (V (Proc.devRef .tc main_v9)) := by
  simp only [hostOps0_2]
  after_results_simp <;> rfl

theorem coeff_keeps_v5 (V : Valuation τ sig (Elt Ideal)) : StableHlo.after hostOps0_2 V (Proc.devRef .tc main_v5) = V (Proc.devRef .tc main_v5) :=
  StableHlo.after_of_forall_not_mem (b := Proc.devRef .tc main_v5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem coeff_keeps_v6 (V : Valuation τ sig (Elt Ideal)) : StableHlo.after hostOps0_2 V (Proc.devRef .tc main_v6) = V (Proc.devRef .tc main_v6) :=
  StableHlo.after_of_forall_not_mem (b := Proc.devRef .tc main_v6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## The stretches between the pallas_calls: an aggregation layer, then (twice) a relu -/

/-- The first aggregation layer. -/
theorem agg_step1 (V : Valuation τ sig (Elt Ideal)) : StableHlo.after hostOps1 V (Proc.devRef .tc main_v49) = Cert.ReferenceIdeal.Spec.agg (F := Ideal) (V (Proc.devRef .tc main_v33)) (V (Proc.devRef .tc main_v5)) (V (Proc.devRef .tc main_v6)) (V (Proc.devRef .tc main_v32)) (V (Proc.devRef .tc main_arg3)) := by
  simp only [hostOps1]
  after_results_simp <;> rfl

/-- Its relu. -/
theorem relu_step1 (V : Valuation τ sig (Elt Ideal)) : StableHlo.after hostOps1_1 V (Proc.devRef .tc main_v50) = Cert.ReferenceIdeal.Spec.relu (F := Ideal) (V (Proc.devRef .tc main_v49)) := by
  simp only [hostOps1_1]
  after_results_simp <;> rfl

/-- The second aggregation layer. -/
theorem agg_step2 (V : Valuation τ sig (Elt Ideal)) : StableHlo.after hostOps2 V (Proc.devRef .tc main_v67) = Cert.ReferenceIdeal.Spec.agg (F := Ideal) (V (Proc.devRef .tc main_v51)) (V (Proc.devRef .tc main_v5)) (V (Proc.devRef .tc main_v6)) (V (Proc.devRef .tc main_v32)) (V (Proc.devRef .tc main_arg5)) := by
  simp only [hostOps2]
  after_results_simp <;> rfl

/-- Its relu. -/
theorem relu_step2 (V : Valuation τ sig (Elt Ideal)) : StableHlo.after hostOps2_1 V (Proc.devRef .tc main_v68) = Cert.ReferenceIdeal.Spec.relu (F := Ideal) (V (Proc.devRef .tc main_v67)) := by
  simp only [hostOps2_1]
  after_results_simp <;> rfl

/-- The third aggregation layer. -/
theorem agg_step3 (V : Valuation τ sig (Elt Ideal)) : StableHlo.after hostOps3 V (Proc.devRef .tc main_v85) = Cert.ReferenceIdeal.Spec.agg (F := Ideal) (V (Proc.devRef .tc main_v69)) (V (Proc.devRef .tc main_v5)) (V (Proc.devRef .tc main_v6)) (V (Proc.devRef .tc main_v32)) (V (Proc.devRef .tc main_arg7)) := by
  simp only [hostOps3]
  after_results_simp <;> rfl

/-- The bias reshaped to one row. -/
theorem bias_step (V : Valuation τ sig (Elt Ideal)) : StableHlo.after hostOps3 V (Proc.devRef .tc main_v86) = shapeCast S1x128 (V (Proc.devRef .tc main_arg9)) shapeCasts_S128_S1x128 := by
  simp only [hostOps3]
  after_results_simp <;> rfl

/-! ## The boundaries of the run -/

variable (m : (ℓ : Loc nD τ sig) → Buf (Elt Ideal) ℓ) (ρ : Dev nD → PrngReg) (c : Dev nD)

/-- The sources of the edges at the first product's entry. -/
theorem src_at3 : W3 m ρ c (Proc.devRef .tc main_v5) = Cert.ReferenceIdeal.Spec.src (m ((c : Thread nD τ).loc main_arg1)) :=
  (coeff_keeps_v5 (W2 m ρ c)).trans ((select_keeps_v5 (W1 m ρ c)).trans (src_step (W0 m ρ c)))

/-- The targets of the edges at the first product's entry. -/
theorem dst_at3 : W3 m ρ c (Proc.devRef .tc main_v6) = Cert.ReferenceIdeal.Spec.dst (m ((c : Thread nD τ).loc main_arg1)) :=
  (coeff_keeps_v6 (W2 m ρ c)).trans ((select_keeps_v6 (W1 m ρ c)).trans (dst_step (W0 m ρ c)))

/-- The nodes' factors after the second stretch. -/
theorem dinv_at2 : W2 m ρ c (Proc.devRef .tc main_v16) = Cert.ReferenceIdeal.Spec.dinv (F := Ideal) (m ((c : Thread nD τ).loc main_arg1)) :=
  (select_step (W1 m ρ c)).trans (Cert.ReferenceIdeal.Spec.dinvOf_congr (pos_step (W0 m ρ c)) (rsqrt_step (W0 m ρ c)) (zero_step (W0 m ρ c)))

/-- The coefficients of the edges at the first product's entry. -/
theorem norm_at3 : W3 m ρ c (Proc.devRef .tc main_v32) = Cert.ReferenceIdeal.Spec.norm (F := Ideal) (m ((c : Thread nD τ).loc main_arg1)) :=
  (coeff_step (W2 m ρ c)).trans (Cert.ReferenceIdeal.Spec.coeff_congr (dinv_at2 m ρ c)
    ((select_keeps_v5 (W1 m ρ c)).trans (src_step (W0 m ρ c)))
    ((select_keeps_v6 (W1 m ρ c)).trans (dst_step (W0 m ρ c)))
    ((select_keeps_v9 (W1 m ρ c)).trans (ew_step (W0 m ρ c))))

/-- After the first pallas_call: x · W1 of the operand arrays as it finds them. -/
theorem prod0 : W4 m ρ c (Proc.devRef .tc main_v33) = Cert.ReferenceIdeal.Spec.dotA (F := Ideal) (V3 m ρ c main_arg0) (V3 m ρ c main_arg2) :=
  (W4_arr m ρ c 2).trans (Cert.KernelIdeal.Product0.array_eq (V3 m ρ) c)

/-- After the second: h · W2. -/
theorem prod1 : W7 m ρ c (Proc.devRef .tc main_v51) = Cert.ReferenceIdeal.Spec.dotB (F := Ideal) (V6 m ρ c main_v50) (V6 m ρ c main_arg4) :=
  (W7_arr m ρ c 2).trans (Cert.KernelIdeal.Product1.array_eq (V6 m ρ) c)

/-- After the third: h · We. -/
theorem prod2 : W10 m ρ c (Proc.devRef .tc main_v69) = Cert.ReferenceIdeal.Spec.dotB (F := Ideal) (V9 m ρ c main_v68) (V9 m ρ c main_arg6) :=
  (W10_arr m ρ c 2).trans (Cert.KernelIdeal.Product2.array_eq (V9 m ρ) c)

/-- After the fourth: sigmoid(h · Wf + the bias row). -/
theorem out3 : W12 m ρ c (Proc.devRef .tc main_v87) = Cert.ReferenceIdeal.Spec.last (F := Ideal) (V11 m ρ c main_v85) (V11 m ρ c main_arg8) (V11 m ρ c main_v86) :=
  (W12_arr m ρ c 3).trans (Cert.KernelIdeal.Output3.array_eq (V11 m ρ) c)

/-- The second product's left operand: relu of the first aggregation layer of the first product's exit contents. -/
theorem layer1 : W6 m ρ c (Proc.devRef .tc main_v50) = Cert.ReferenceIdeal.Spec.relu (Cert.ReferenceIdeal.Spec.agg (F := Ideal) (W4 m ρ c (Proc.devRef .tc main_v33)) (W4 m ρ c (Proc.devRef .tc main_v5)) (W4 m ρ c (Proc.devRef .tc main_v6)) (W4 m ρ c (Proc.devRef .tc main_v32)) (W4 m ρ c (Proc.devRef .tc main_arg3))) :=
  (relu_step1 (W5 m ρ c)).trans (congrArg (Cert.ReferenceIdeal.Spec.relu (F := Ideal)) (agg_step1 (W4 m ρ c)))

/-- The third product's left operand: relu of the second aggregation layer. -/
theorem layer2 : W9 m ρ c (Proc.devRef .tc main_v68) = Cert.ReferenceIdeal.Spec.relu (Cert.ReferenceIdeal.Spec.agg (F := Ideal) (W7 m ρ c (Proc.devRef .tc main_v51)) (W7 m ρ c (Proc.devRef .tc main_v5)) (W7 m ρ c (Proc.devRef .tc main_v6)) (W7 m ρ c (Proc.devRef .tc main_v32)) (W7 m ρ c (Proc.devRef .tc main_arg5))) :=
  (relu_step2 (W8 m ρ c)).trans (congrArg (Cert.ReferenceIdeal.Spec.relu (F := Ideal)) (agg_step2 (W7 m ρ c)))

/-- The last product's left operand: the third aggregation layer. -/
theorem layer3 : W11 m ρ c (Proc.devRef .tc main_v85) = Cert.ReferenceIdeal.Spec.agg (F := Ideal) (W10 m ρ c (Proc.devRef .tc main_v69)) (W10 m ρ c (Proc.devRef .tc main_v5)) (W10 m ρ c (Proc.devRef .tc main_v6)) (W10 m ρ c (Proc.devRef .tc main_v32)) (W10 m ρ c (Proc.devRef .tc main_arg7)) :=
  agg_step3 (W10 m ρ c)

/-- The last pallas_call's bias operand: the bias reshaped to one row. -/
theorem bias3 : W11 m ρ c (Proc.devRef .tc main_v86) = shapeCast S1x128 (W10 m ρ c (Proc.devRef .tc main_arg9)) shapeCasts_S128_S1x128 :=
  bias_step (W10 m ρ c)

/-! ## A [128] array as one row: the reshape is the broadcast -/

/-- The [128] array's index at column `i 1`. -/
abbrev col (i : S1x128.Idx) : S128.Idx := fun a => match a with
  | ⟨0, _⟩ => ⟨(i 1).val, (i 1).isLt⟩

/-- Reshaping a [128] array to [1, 128] and broadcasting it to [1, 128] along axis 1 give the same row. -/
theorem row_eq (a : FVec Ideal S128 .f32) :
    shapeCast S1x128 a shapeCasts_S128_S1x128
      = broadcastInDim Cert.ReferenceIdeal.S1x128 ![1] Cert.ReferenceIdeal.Gen.bcast_S128_S1x128_1 (a : FVec Ideal Cert.ReferenceIdeal.S128 .f32) := by
  funext i
  have hk1 : (S128.rowMajor (col i)).val = (S1x128.rowMajor i).val := by
    rw [Shape.rowMajor_val_one, Shape.rowMajor_val_two]
    have h0 : (i 0).val < 1 := (i 0).isLt
    show (i 1).val = (i 0).val * 128 + (i 1).val
    omega
  rw [shapeCast_apply a shapeCasts_S128_S1x128 i (col i) hk1]
  exact (broadcastInDim_apply ![1] Cert.ReferenceIdeal.Gen.bcast_S128_S1x128_1 (a : FVec Ideal Cert.ReferenceIdeal.S128 .f32) i (col i)
    (fun a' => by
      match a' with
      | ⟨0, _⟩ => exact (if_neg (show ¬ ((128 : ℕ) = 1) by decide)).symm)).symm

end Cert.KernelIdeal.Stages

end
-- ==== Proof.Assemble.lean ====
/-
  The idealized kernel's result as the network function of its ten argument arrays: the boundaries' contents chained from
  the last pallas_call back to the launch.  Each pallas_call's result is a product (the last one the sigmoid layer) of its
  operand arrays at its entry; each operand is either an argument array, which holds its launch contents, or the
  aggregation layer the host computed from the previous product, the edge arrays and a bias argument.
-/
import proofs.«141948_j71322226917733_1_alg».proof.Proof.Carry
import proofs.«141948_j71322226917733_1_alg».proof.Proof.Stages

set_option maxRecDepth 16384

noncomputable section

namespace Cert.KernelIdeal.Assemble

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The first product: x · W1 of the arguments. -/
theorem product1 : W4 m ρ c (Proc.devRef .tc main_v33) = Cert.ReferenceIdeal.Spec.dotA (F := Ideal) (m ((c : Thread nD τ).loc main_arg0)) (m ((c : Thread nD τ).loc main_arg2)) :=
  (Stages.prod0 m ρ c).trans (Cert.ReferenceIdeal.Spec.dotA_congr (Carry.W3_arg0 m ρ c) (Carry.W3_arg2 m ρ c))

/-- The second product's left operand: relu of the first aggregation layer of the arguments. -/
theorem features1 : W6 m ρ c (Proc.devRef .tc main_v50) = Cert.ReferenceIdeal.Spec.relu (Cert.ReferenceIdeal.Spec.agg (F := Ideal) (Cert.ReferenceIdeal.Spec.dotA (F := Ideal) (m ((c : Thread nD τ).loc main_arg0)) (m ((c : Thread nD τ).loc main_arg2))) (Cert.ReferenceIdeal.Spec.src (m ((c : Thread nD τ).loc main_arg1))) (Cert.ReferenceIdeal.Spec.dst (m ((c : Thread nD τ).loc main_arg1))) (Cert.ReferenceIdeal.Spec.norm (F := Ideal) (m ((c : Thread nD τ).loc main_arg1))) (m ((c : Thread nD τ).loc main_arg3))) :=
  (Stages.layer1 m ρ c).trans (congrArg Cert.ReferenceIdeal.Spec.relu (Cert.ReferenceIdeal.Spec.agg_congr (product1 m ρ c) ((Carry.W4_v5 m ρ c).trans (Stages.src_at3 m ρ c)) ((Carry.W4_v6 m ρ c).trans (Stages.dst_at3 m ρ c)) ((Carry.W4_v32 m ρ c).trans (Stages.norm_at3 m ρ c)) (Carry.W4_arg3 m ρ c)))

/-- The second product. -/
theorem product2 : W7 m ρ c (Proc.devRef .tc main_v51) = Cert.ReferenceIdeal.Spec.dotB (F := Ideal) (Cert.ReferenceIdeal.Spec.relu (Cert.ReferenceIdeal.Spec.agg (F := Ideal) (Cert.ReferenceIdeal.Spec.dotA (F := Ideal) (m ((c : Thread nD τ).loc main_arg0)) (m ((c : Thread nD τ).loc main_arg2))) (Cert.ReferenceIdeal.Spec.src (m ((c : Thread nD τ).loc main_arg1))) (Cert.ReferenceIdeal.Spec.dst (m ((c : Thread nD τ).loc main_arg1))) (Cert.ReferenceIdeal.Spec.norm (F := Ideal) (m ((c : Thread nD τ).loc main_arg1))) (m ((c : Thread nD τ).loc main_arg3)))) (m ((c : Thread nD τ).loc main_arg4)) :=
  (Stages.prod1 m ρ c).trans (Cert.ReferenceIdeal.Spec.dotB_congr (features1 m ρ c) (Carry.W6_arg4 m ρ c))

/-- The third product's left operand: relu of the second aggregation layer. -/
theorem features2 : W9 m ρ c (Proc.devRef .tc main_v68) = Cert.ReferenceIdeal.Spec.relu (Cert.ReferenceIdeal.Spec.agg (F := Ideal) (Cert.ReferenceIdeal.Spec.dotB (F := Ideal) (Cert.ReferenceIdeal.Spec.relu (Cert.ReferenceIdeal.Spec.agg (F := Ideal) (Cert.ReferenceIdeal.Spec.dotA (F := Ideal) (m ((c : Thread nD τ).loc main_arg0)) (m ((c : Thread nD τ).loc main_arg2))) (Cert.ReferenceIdeal.Spec.src (m ((c : Thread nD τ).loc main_arg1))) (Cert.ReferenceIdeal.Spec.dst (m ((c : Thread nD τ).loc main_arg1))) (Cert.ReferenceIdeal.Spec.norm (F := Ideal) (m ((c : Thread nD τ).loc main_arg1))) (m ((c : Thread nD τ).loc main_arg3)))) (m ((c : Thread nD τ).loc main_arg4))) (Cert.ReferenceIdeal.Spec.src (m ((c : Thread nD τ).loc main_arg1))) (Cert.ReferenceIdeal.Spec.dst (m ((c : Thread nD τ).loc main_arg1))) (Cert.ReferenceIdeal.Spec.norm (F := Ideal) (m ((c : Thread nD τ).loc main_arg1))) (m ((c : Thread nD τ).loc main_arg5))) :=
  (Stages.layer2 m ρ c).trans (congrArg Cert.ReferenceIdeal.Spec.relu (Cert.ReferenceIdeal.Spec.agg_congr (product2 m ρ c) ((Carry.W7_v5 m ρ c).trans (Stages.src_at3 m ρ c)) ((Carry.W7_v6 m ρ c).trans (Stages.dst_at3 m ρ c)) ((Carry.W7_v32 m ρ c).trans (Stages.norm_at3 m ρ c)) (Carry.W7_arg5 m ρ c)))

/-- The third product. -/
theorem product3 : W10 m ρ c (Proc.devRef .tc main_v69) = Cert.ReferenceIdeal.Spec.dotB (F := Ideal) (Cert.ReferenceIdeal.Spec.relu (Cert.ReferenceIdeal.Spec.agg (F := Ideal) (Cert.ReferenceIdeal.Spec.dotB (F := Ideal) (Cert.ReferenceIdeal.Spec.relu (Cert.ReferenceIdeal.Spec.agg (F := Ideal) (Cert.ReferenceIdeal.Spec.dotA (F := Ideal) (m ((c : Thread nD τ).loc main_arg0)) (m ((c : Thread nD τ).loc main_arg2))) (Cert.ReferenceIdeal.Spec.src (m ((c : Thread nD τ).loc main_arg1))) (Cert.ReferenceIdeal.Spec.dst (m ((c : Thread nD τ).loc main_arg1))) (Cert.ReferenceIdeal.Spec.norm (F := Ideal) (m ((c : Thread nD τ).loc main_arg1))) (m ((c : Thread nD τ).loc main_arg3)))) (m ((c : Thread nD τ).loc main_arg4))) (Cert.ReferenceIdeal.Spec.src (m ((c : Thread nD τ).loc main_arg1))) (Cert.ReferenceIdeal.Spec.dst (m ((c : Thread nD τ).loc main_arg1))) (Cert.ReferenceIdeal.Spec.norm (F := Ideal) (m ((c : Thread nD τ).loc main_arg1))) (m ((c : Thread nD τ).loc main_arg5)))) (m ((c : Thread nD τ).loc main_arg6)) :=
  (Stages.prod2 m ρ c).trans (Cert.ReferenceIdeal.Spec.dotB_congr (features2 m ρ c) (Carry.W9_arg6 m ρ c))

/-- The last pallas_call's features operand: the three aggregation layers of the arguments. -/
theorem features3 : W11 m ρ c (Proc.devRef .tc main_v85) = Cert.ReferenceIdeal.Spec.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (Stages.layer3 m ρ c).trans (Cert.ReferenceIdeal.Spec.agg_congr (product3 m ρ c) ((Carry.W10_v5 m ρ c).trans (Stages.src_at3 m ρ c)) ((Carry.W10_v6 m ρ c).trans (Stages.dst_at3 m ρ c)) ((Carry.W10_v32 m ρ c).trans (Stages.norm_at3 m ρ c)) (Carry.W10_arg7 m ρ c))

/-- The last pallas_call's bias operand: the bias argument as one row. -/
theorem bias_row : W11 m ρ c (Proc.devRef .tc main_v86) = broadcastInDim Cert.ReferenceIdeal.S1x128 ![1] Cert.ReferenceIdeal.Gen.bcast_S128_S1x128_1 ((m ((c : Thread nD τ).loc main_arg9)) : FVec Ideal Cert.ReferenceIdeal.S128 .f32) :=
  (Stages.bias3 m ρ c).trans ((congrArg (fun a : FVec Ideal S128 .f32 => shapeCast S1x128 a shapeCasts_S128_S1x128) (Carry.W10_arg9 m ρ c)).trans (Stages.row_eq (m ((c : Thread nD τ).loc main_arg9))))

/-- THE RESULT: the kernel's result buffer at the last boundary is the network function of the ten argument arrays. -/
theorem result_value : W12 m ρ c (Proc.devRef .tc main_v87) = Cert.ReferenceIdeal.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (Stages.out3 m ρ c).trans (Cert.ReferenceIdeal.Spec.last_congr (features3 m ρ c) (Carry.W11_arg8 m ρ c) (bias_row m ρ c))

end Cert.KernelIdeal.Assemble

end
-- ==== Proof.lean ====
/-
  The certificate of a three-layer graph convolution network with a sigmoid output layer, whose four dense products are
  pallas_calls, against the same network written with the host's matrix products.

  Both programs compute the same function of the ten argument arrays: the edges' sources, targets and coefficients from the
  edge array; three aggregation layers (gather the rows of h · W by source, scale by the coefficients, add up by target,
  add the bias), a relu after the first two; and sigmoid(h · Wf + bf).  They differ only in how the four products are
  made.  The kernel makes each over ten row blocks of 5000 rows, rounding the operands to bf16 on the way in and
  accumulating in f32; at the ideal values the rounding is the identity and a block's product entry is the same sum of
  products as the host's, so the ten blocks assemble to the host's whole-array product.  The kernel's sigmoid is the
  logistic function, which at the ideal values IS the host's 1 / (1 + exp(−y)) on every extended real.  No algebraic law
  beyond that is used, so the precondition (finite float inputs) is never opened.

  The three frames are the generated ones (the reference's is its run with the result dropped); the idealization
  rewrote nothing, so `preserves` is trivial.
-/
import proofs.«141948_j71322226917733_1_alg».proof.Defs
import proofs.«141948_j71322226917733_1_alg».proof.Proof.Gen.Kernel
import proofs.«141948_j71322226917733_1_alg».proof.Proof.Gen.Kernel.Skeleton
import proofs.«141948_j71322226917733_1_alg».proof.Proof.Gen.Kernel.Launch
import proofs.«141948_j71322226917733_1_alg».proof.Proof.Gen.Kernel.Points
import proofs.«141948_j71322226917733_1_alg».proof.Proof.Gen.Kernel.Frame
import proofs.«141948_j71322226917733_1_alg».proof.Proof.Gen.KernelIdeal
import proofs.«141948_j71322226917733_1_alg».proof.Proof.Gen.KernelIdeal.Skeleton
import proofs.«141948_j71322226917733_1_alg».proof.Proof.Gen.KernelIdeal.Launch
import proofs.«141948_j71322226917733_1_alg».proof.Proof.Gen.KernelIdeal.Points
import proofs.«141948_j71322226917733_1_alg».proof.Proof.Gen.KernelIdeal.Frame
import proofs.«141948_j71322226917733_1_alg».proof.Proof.Gen.ReferenceIdeal
import proofs.«141948_j71322226917733_1_alg».proof.Proof.Gen.Pre_finite_inputs
import proofs.«141948_j71322226917733_1_alg».proof.Proof.ReferenceRun
import proofs.«141948_j71322226917733_1_alg».proof.Proof.RefValue
import proofs.«141948_j71322226917733_1_alg».proof.Proof.KernelRun
import proofs.«141948_j71322226917733_1_alg».proof.Proof.Assemble
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the network function of the arguments in
    their result arrays. -/
theorem algebraic : Cert.algebraic_KernelIdeal_ReferenceIdeal := by
  intro m ρ m' ρ' _ hagree
  refine ⟨fun c => Cert.ReferenceIdeal.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.KernelIdeal.Assemble.result_value m ρ c), (h c).2⟩)
      (Cert.KernelIdeal.ResultRun.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq]
    obtain ⟨h0, h1, h2, h3, h4, h5, h6, h7, h8, h9⟩ := hagree c
    rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
